-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000 : Shape := ⟨1, ![10000]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000 : S_.BroadcastsInDim S10000 (![] : Fin 0 → Fin S10000.rank)
  reducesTo_S10000_S_d0 : S10000.ReducesTo [0] S_

variable [Facts]

def fn {F : FTy → Type} [FloatOps F] (main_arg0 : FVec F S10000x10000 .f32) (main_arg1 : FVec F S10000 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000 .f32 := Host.absf main_arg1
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  main_v8
-- ==== Kernel.lean ====
abbrev S10000x10000 : Shape := ⟨2, ![10000, 10000]⟩
abbrev S10000 : Shape := ⟨1, ![10000]⟩
abbrev S10000x1 : Shape := ⟨2, ![10000, 1]⟩
abbrev S1x10000 : Shape := ⟨2, ![1, 10000]⟩
abbrev S200x10000 : Shape := ⟨2, ![200, 10000]⟩
abbrev S200x1 : Shape := ⟨2, ![200, 1]⟩

abbrev nBuf : Space → Nat
  | .hbm => 5
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000, .f32⟩
  | .hbm, ⟨2, _⟩ => ⟨S10000x1, .f32⟩
  | .hbm, ⟨3, _⟩ => ⟨S1x10000, .f32⟩
  | .hbm, ⟨4, _⟩ => ⟨S10000x10000, .f32⟩
  | .local _ .vmem, ⟨0, _⟩ => ⟨S200x10000, .f32⟩
  | .local _ .vmem, ⟨1, _⟩ => ⟨S200x10000, .f32⟩
  | .local _ .vmem, ⟨2, _⟩ => ⟨S200x1, .f32⟩
  | .local _ .vmem, ⟨3, _⟩ => ⟨S200x1, .f32⟩
  | .local _ .vmem, ⟨4, _⟩ => ⟨S1x10000, .f32⟩
  | .local _ .vmem, ⟨5, _⟩ => ⟨S200x10000, .f32⟩
  | .local _ .vmem, ⟨6, _⟩ => ⟨S200x10000, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x10000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S10000_S10000x1 : S10000.ShapeCasts S10000x1
  shapeCasts_S10000_S1x10000 : S10000.ShapeCasts S1x10000
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S200x10000_S200x10000_0_0 : ∀ a, (![0, 0] : Fin 2 → Nat) a + S200x10000.size a ≤ S200x10000.size a
  h_S200x10000 : 0 < S200x10000.numel
  broadcasts_S200x1_S200x10000 : S200x1.Broadcasts S200x10000
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S1x10000_S200x10000 : S1x10000.Broadcasts S200x10000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x1.size a ≤ S10000x1.size a
  hwx0_1 : ∀ i : grid0.Coords, EltTy.bits .f32 = 32 ∨ (Rect.block (s := S10000x1) S200x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10000.size a ≤ S1x10000.size a
  hwx0_2 : ∀ i : grid0.Coords, EltTy.bits .f32 = 32 ∨ (Rect.block (s := S1x10000) S1x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)

variable [Facts₀]

abbrev win0_0 : Pipeline.Window sig grid0 :=
  Pipeline.Window.ofSpec (Memref.whole main_arg0) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S200x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x10000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S200x10000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where
  halias0_3 : Pipeline.Aliased win0 0 3

variable [Facts]
-- ==== ReferenceIdeal.lean ====
abbrev S10000x10000 : Shape := ⟨2, ![10000, 10000]⟩
abbrev S10000 : Shape := ⟨1, ![10000]⟩
abbrev S10000x1 : Shape := ⟨2, ![10000, 1]⟩
abbrev S1x10000 : Shape := ⟨2, ![1, 10000]⟩

abbrev nBuf : Space → Nat
  | .hbm => 8
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000, .f32⟩
  | .hbm, ⟨2, _⟩ => ⟨S10000x1, .f32⟩
  | .hbm, ⟨3, _⟩ => ⟨S10000x10000, .f32⟩
  | .hbm, ⟨4, _⟩ => ⟨S10000x10000, .f32⟩
  | .hbm, ⟨5, _⟩ => ⟨S1x10000, .f32⟩
  | .hbm, ⟨6, _⟩ => ⟨S10000x10000, .f32⟩
  | .hbm, ⟨7, _⟩ => ⟨S10000x10000, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S10000_S10000x1_0 : S10000.BroadcastsInDim S10000x1 (![0] : Fin 1 → Fin S10000x1.rank)
  bcast_S10000x1_S10000x10000_0_1 : S10000x1.BroadcastsInDim S10000x10000 (![0, 1] : Fin 2 → Fin S10000x10000.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)

variable [Facts₀]

class Facts : Prop extends Facts₀ where

variable [Facts]
-- ==== Proof.Scaling.lean ====
/-
  The symmetric diagonal rescaling of a square matrix, as one function of its two arguments.

  For a matrix `A` of 10000 × 10000 entries and a vector `α` of 10000 entries, `scaled A α` is the matrix whose
  entry at row `i`, column `j` is `(α i · A i j) · α j`: the row's factor is multiplied in first, the column's second.
  The product is the float instance's own `mulf`, so the definition makes sense at every instance — on machine words it
  rounds twice in this order, on the extended reals it is the exact product — and nothing here depends on the entries
  being finite: no law of arithmetic is used, only where each factor is read.

  Both programs of this certificate hand the vector to the product through a change of shape: as a COLUMN (10000 × 1)
  for the row factor and as a ROW (1 × 10000) for the column factor. A change of shape keeps the row-major order of the
  entries, so entry `(i, 0)` of the column and entry `(0, j)` of the row are entries `i` and `j` of the vector: the two
  lemmas at the end.
-/
import Idealize.ShloMosaic.Lib.ValueIdx
import Idealize.ShloMosaic.Lib.Pipeline.Value

noncomputable section

namespace Cert.Scaling

open Idealize.ShloMosaic

variable {F : FTy → Type} [FloatOps F]

/-- The row of a matrix index, as an index of the vector. -/
abbrev rowIx (i : (⟨2, ![10000, 10000]⟩ : Shape).Idx) : (⟨1, ![10000]⟩ : Shape).Idx := fun a => match a with
  | ⟨0, _⟩ => ⟨(i 0).val, (i 0).isLt⟩

/-- The column of a matrix index, as an index of the vector. -/
abbrev colIx (i : (⟨2, ![10000, 10000]⟩ : Shape).Idx) : (⟨1, ![10000]⟩ : Shape).Idx := fun a => match a with
  | ⟨0, _⟩ => ⟨(i 1).val, (i 1).isLt⟩

/-- THE RESULT: entry `(i, j)` is `(α i · A i j) · α j`. -/
def scaled (A : (⟨2, ![10000, 10000]⟩ : Shape).Idx → Elt F .f32) (α : (⟨1, ![10000]⟩ : Shape).Idx → Elt F .f32) :
    (⟨2, ![10000, 10000]⟩ : Shape).Idx → Elt F .f32 :=
  fun i => FloatOps.mulf (FloatOps.mulf (α (rowIx i)) (A i)) (α (colIx i))

theorem scaled_apply (A : (⟨2, ![10000, 10000]⟩ : Shape).Idx → Elt F .f32) (α : (⟨1, ![10000]⟩ : Shape).Idx → Elt F .f32)
    (i : (⟨2, ![10000, 10000]⟩ : Shape).Idx) :
    scaled A α i = FloatOps.mulf (FloatOps.mulf (α (rowIx i)) (A i)) (α (colIx i)) := rfl

section Casts
variable {β : Type}

/-- The vector viewed as a column: entry `(r, 0)` is entry `r` of the vector (row-major position `r · 1 + 0 = r`). -/
theorem column_apply (x : (⟨1, ![10000]⟩ : Shape).Idx → β)
    (h : (⟨1, ![10000]⟩ : Shape).ShapeCasts ⟨2, ![10000, 1]⟩) (k : (⟨2, ![10000, 1]⟩ : Shape).Idx)
    (j : (⟨1, ![10000]⟩ : Shape).Idx) (hj : (j 0).val = (k 0).val) :
    shapeCast ⟨2, ![10000, 1]⟩ x h k = x j :=
  shapeCast_apply x h k j (by
    have h1 : (k 1).val < 1 := (k 1).isLt
    rw [Shape.rowMajor_val_two, Shape.rowMajor_val_one]
    show (j 0).val = (k 0).val * 1 + (k 1).val
    omega)

/-- The vector viewed as a row: entry `(0, q)` is entry `q` of the vector (row-major position `0 · 10000 + q = q`). -/
theorem row_apply (x : (⟨1, ![10000]⟩ : Shape).Idx → β)
    (h : (⟨1, ![10000]⟩ : Shape).ShapeCasts ⟨2, ![1, 10000]⟩) (k : (⟨2, ![1, 10000]⟩ : Shape).Idx)
    (j : (⟨1, ![10000]⟩ : Shape).Idx) (hj : (j 0).val = (k 1).val) :
    shapeCast ⟨2, ![1, 10000]⟩ x h k = x j :=
  shapeCast_apply x h k j (by
    have h0 : (k 0).val < 1 := (k 0).isLt
    rw [Shape.rowMajor_val_two, Shape.rowMajor_val_one]
    show (j 0).val = (k 0).val * 10000 + (k 1).val
    omega)

end Casts

end Cert.Scaling

end
-- ==== Proof.RefScaled.lean ====
/-
  The reference computes the rescaled matrix.

  The reference broadcasts the vector twice — down the rows as a column `[10000, 1]` then across to the full square,
  and across the columns as a row `[1, 10000]` then down to the full square — and multiplies: the column broadcast
  with the matrix first, the result with the row broadcast. A broadcast only copies, so at entry `(i, j)` the first
  broadcast reads the vector at `i` and the second at `j`: the entry is `(α i · A i j) · α j`, which is `scaled A α`
  at that entry, with the same two products in the same order.
-/
import proofs.«108415_j13280038880162_2_alg».proof.Proof.Gen.ReferenceIdeal.Read
import proofs.«108415_j13280038880162_2_alg».proof.Proof.Scaling

noncomputable section

namespace Cert.ReferenceIdeal.Scaled

open Cert.ReferenceIdeal Cert.ReferenceIdeal.Read Idealize.ShloMosaic Cert.Scaling

variable {F : FTy → Type} [FloatOps F]

/-- Through the two broadcasts of the row factor, entry `(i, j)` reads the vector at the row `i`. -/
theorem row_factor_ix (i : S10000x10000.Idx) : idx_main_v0 (idx_main_v1 i) = rowIx i :=
  funext fun a => Fin.ext (by match a with | ⟨0, _⟩ => rfl)

/-- Through the two broadcasts of the column factor, entry `(i, j)` reads the vector at the column `j`. -/
theorem col_factor_ix (i : S10000x10000.Idx) : idx_main_v3 (idx_main_v4 i) = colIx i :=
  funext fun a => Fin.ext (by match a with | ⟨0, _⟩ => rfl)

/-- The reference's last stage is the rescaled matrix. -/
theorem stage_eq (A : (⟨S10000x10000, .f32⟩ : BufTy).Contents (Elt F)) (α : (⟨S10000, .f32⟩ : BufTy).Contents (Elt F)) :
    val_main_v5 (F := F) A α = scaled A α := by
  funext i
  rw [val_main_v5_apply, val_main_v2_apply, val_main_v1_apply, val_main_v0_apply, val_main_v4_apply, val_main_v3_apply,
    row_factor_ix, col_factor_ix]
  rfl

end Cert.ReferenceIdeal.Scaled

end
-- ==== Proof.KernelScaled.lean ====
/-
  The kernel leaves the rescaled matrix in its result array.

  The kernel walks the matrix in 50 panels of 200 full rows. At panel `t` it is handed rows `200 t … 200 t + 199` of
  the matrix (a `[200, 10000]` block), the same rows of the vector viewed as a column (a `[200, 1]` block), and the
  whole vector viewed as a row (the one `[1, 10000]` block, the same at every panel); it broadcasts the column block
  across and the row block down, multiplies the column broadcast with the matrix block, then the result with the row
  broadcast, and writes the panel back to rows `200 t … 200 t + 199` of the result.

  So at local position `(p, q)` of panel `t` it stores `(α (200 t + p) · A (200 t + p, q)) · α q`, which is
  `scaled A α` at the entry `(200 t + p, q)` the position is written back to: every panel is the matching panel of ONE
  matrix (`panel_eq`). Row `r` lies in panel `r / 200`, so the 50 panels cover the result (`covered`), and the result
  array ends holding `scaled A α` (`result_eq`, `run`).
-/
import proofs.«108415_j13280038880162_2_alg».proof.Proof.Gen.KernelIdeal.Value
import proofs.«108415_j13280038880162_2_alg».proof.Proof.Scaling
import Idealize.ShloMosaic.Lib.Pipeline.Value
import Idealize.ShloMosaic.Lib.StableHlo.Run
import Idealize.ShloMosaic.Lib.Tactic

noncomputable section

namespace Cert.KernelIdeal.Scaled

open Cert.KernelIdeal Cert.KernelIdeal.Gen Cert.KernelIdeal.Value Idealize.ShloMosaic Idealize.ShloMosaic.TcCoe Idealize.SL.Sem
open Idealize.ShloMosaic.Pipeline (Dat)
open Cert.Scaling

variable {F : FTy → Type} [FloatOps F]
variable (m : (ℓ : Loc nD τ sig) → Buf (Elt F) ℓ) (ρ : Dev nD → PrngReg)

/-! ## The arrays the kernel is launched on -/

/-- The column array is the vector argument with its shape changed to `[10000, 1]`. -/
theorem column_array (c : Dev nD) :
    (V m c main_v0 : S10000x1.Idx → Elt F .f32) = shapeCast S10000x1 (m ((c : Thread nD τ).loc main_arg1)) shapeCasts_S10000_S10000x1 := by
  dsimp only [Gen.V, Gen.hostOps0]; after_results; rfl

/-- The row array is the vector argument with its shape changed to `[1, 10000]`. -/
theorem row_array (c : Dev nD) :
    (V m c main_v1 : S1x10000.Idx → Elt F .f32) = shapeCast S1x10000 (m ((c : Thread nD τ).loc main_arg1)) shapeCasts_S10000_S1x10000 := by
  dsimp only [Gen.V, Gen.hostOps0]; after_results; rfl

/-! ## One panel -/

theorem zero_offsets : (![0, 0] : Fin 2 → Nat) = fun _ => 0 := funext fun a => by fin_cases a <;> rfl

/-- What the body stores, position by position, for any three loaded blocks: the column block read at the
    position's row, the matrix block at the position, the row block at the position's column, multiplied in
    that order. -/
theorem stored_apply (P0 : Vec F S200x1 .f32) (P1 : Vec F S200x10000 .f32) (P2 : Vec F S1x10000 .f32) (y : S200x10000.Idx) :
    out0_3 P1 P0 P2 y = FloatOps.mulf (FloatOps.mulf (P0 (ix3_0 y)) (P1 (ix3_1 y))) (P2 (ix3_2 y)) := by
  unfold out0_3
  simp only [View.ld_unit_zero (S := S200x10000) zero_offsets, View.ld_unit_zero (S := S200x1) zero_offsets,
    View.ld_unit_zero (S := S1x10000) zero_offsets]
  exact canon3_eq P0 P1 P2 y

/-- Where the panels sit: at panel `t` the matrix block, the column block and the result block are block-row `t`
    of their arrays, and the row block is the whole row array (decided over the 50 panels). -/
theorem panel_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT PANEL `t` WRITES BACK is panel `t` of the rescaled matrix. -/
theorem panel_eq (c : Dev nD) (t : Fin cfg0.N) :
    (dats m 0 c).flushed 3 t = ((cfg0.win 3).blk t).view.read (Elt F)
      (scaled (m ((c : Thread nD τ).loc main_arg0)) (m ((c : Thread nD τ).loc main_arg1))) := by
  rw [Value.flushed3]
  obtain ⟨a0, a1, i0, i1, j0, j1, o0, o1⟩ := panel_rows t
  refine funext fun (y : S200x10000.Idx) => ?_
  have hy0 : (y 0).val < 200 := (y 0).isLt
  have hy1 : (y 1).val < 10000 := (y 1).isLt
  show out0_3 (iblk m c 0 t) (iblk m c 1 t) (iblk m c 2 t) y
    = scaled (m ((c : Thread nD τ).loc main_arg0)) (m ((c : Thread nD τ).loc main_arg1)) (((cfg0.win 3).blk t).view.emb y)
  refine (stored_apply (iblk m c 1 t) (iblk m c 0 t) (iblk m c 2 t) y).trans ?_
  rw [scaled_apply]
  show FloatOps.mulf (FloatOps.mulf (V m c main_v0 (((cfg0.win 1).blk t).view.emb (ix3_0 y)))
        (V m c main_arg0 (((cfg0.win 0).blk t).view.emb (ix3_1 y)))) (V m c main_v1 (((cfg0.win 2).blk t).view.emb (ix3_2 y))) = _
  -- the matrix block at the position is the matrix at the entry written back to
  have hA : V m c main_arg0 (((cfg0.win 0).blk t).view.emb (ix3_1 y))
      = m ((c : Thread nD τ).loc main_arg0) (((cfg0.win 3).blk t).view.emb y) := by
    rw [V_main_arg0]
    refine congrArg _ (funext fun a => Fin.ext ?_)
    match a with
    | ⟨0, _⟩ => show win0_0.index t (0 : Fin 2) * 200 + 1 * (y 0).val = win0_3.index t (0 : Fin 2) * 200 + 1 * (y 0).val; omega
    | ⟨1, _⟩ => show win0_0.index t (1 : Fin 2) * 10000 + 1 * (y 1).val = win0_3.index t (1 : Fin 2) * 10000 + 1 * (y 1).val; omega
  -- the column block at the position's row is the vector at the entry's row
  have hI : V m c main_v0 (((cfg0.win 1).blk t).view.emb (ix3_0 y))
      = m ((c : Thread nD τ).loc main_arg1) (rowIx (((cfg0.win 3).blk t).view.emb y)) := by
    rw [column_array]
    refine column_apply _ _ _ _ ?_
    show win0_3.index t (0 : Fin 2) * 200 + 1 * (y 0).val = win0_1.index t (0 : Fin 2) * 200 + 1 * (y 0).val
    omega
  -- the row block at the position's column is the vector at the entry's column
  have hJ : V m c main_v1 (((cfg0.win 2).blk t).view.emb (ix3_2 y))
      = m ((c : Thread nD τ).loc main_arg1) (colIx (((cfg0.win 3).blk t).view.emb y)) := by
    rw [row_array]
    refine row_apply _ _ _ _ ?_
    show win0_3.index t (1 : Fin 2) * 10000 + 1 * (y 1).val = win0_2.index t (1 : Fin 2) * 10000 + 1 * (y 1).val
    omega
  rw [hA, hI, hJ]

/-! ## The panels cover the result -/

/-- An entry is in panel `t`'s block iff each coordinate is in the block's range on its axis. -/
theorem mem_panel (t : Fin cfg0.N) (i : S10000x10000.Idx) :
    i ∈ ((cfg0.win 3).blk t).view.set ↔ ∀ a : Fin 2, win0_3.index t a * S200x10000.size a ≤ (i a).val
      ∧ (i a).val < win0_3.index t a * S200x10000.size a + S200x10000.size a := by
  show i ∈ ((View.whole main_v2).slice (win0_3.rect t)).set ↔ _
  rw [View.set_slice_whole, Rect.mem_set_unit]
  exact Iff.rfl

/-- Every entry of the result is in the panel of its row: row `r` is in panel `r / 200`. -/
theorem covered (i : S10000x10000.Idx) :
    ∃ t : Fin cfg0.N, (cfg0.win 3).flush t = true ∧ i ∈ ((cfg0.win 3).blk t).view.set := by
  have hi0 : (i 0).val < 10000 := (i 0).isLt
  have hi1 : (i 1).val < 10000 := (i 1).isLt
  have hN : cfg0.N = 50 := N_0
  obtain ⟨t, ht⟩ : ∃ t : Fin cfg0.N, t.val = (i 0).val / 200 := ⟨⟨(i 0).val / 200, by omega⟩, rfl⟩
  obtain ⟨-, -, -, -, -, -, o0, o1⟩ := panel_rows t
  refine ⟨t, flush0_3 t, ?_⟩
  rw [mem_panel]
  intro a
  match a with
  | ⟨0, _⟩ =>
    show win0_3.index t (0 : Fin 2) * 200 ≤ (i 0).val ∧ (i 0).val < win0_3.index t (0 : Fin 2) * 200 + 200
    omega
  | ⟨1, _⟩ =>
    show win0_3.index t (1 : Fin 2) * 10000 ≤ (i 1).val ∧ (i 1).val < win0_3.index t (1 : Fin 2) * 10000 + 10000
    omega

/-! ## The result array and the run -/

/-- THE RESULT ARRAY after the run is the rescaled matrix of the two arguments. -/
theorem result_eq (c : Dev nD) : (dats m 0 c).arrAt 3 cfg0.N
    = scaled (m ((c : Thread nD τ).loc main_arg0)) (m ((c : Thread nD τ).loc main_arg1)) :=
  (dats m 0 c).arrAt_eq_of_cover 3 _ (fun t _ => panel_eq m c t) covered

/-- Every weakly fair execution of the kernel's program terminates with the result array at the rescaled matrix
    and the two arguments unchanged. -/
theorem run : θ_run defs (onTc (τ := τ) (main (F := F))) ⟨m, fun _ => 0, ρ⟩ fun r => ∀ c : Dev nD,
      r.2.mem ((c : Thread nD τ).loc main_v2)
        = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.KernelIdeal.Scaled

end
-- ==== Proof.lean ====
/-
  The kernel and its reference both compute the symmetric diagonal rescaling of a square matrix,
  `out (i, j) = (α i · A (i, j)) · α j`, for a matrix of 10000 × 10000 entries and a vector of 10000.

  The two programs multiply the same three numbers in the same order at every entry — the row's factor with the matrix
  entry first, the column's factor second — so they agree on the extended reals without any law of arithmetic: no
  commuting, no regrouping, and therefore no use of the inputs being finite. What differs is only how the factors reach
  the product. The reference broadcasts the vector to the full square twice and multiplies whole arrays
  (Proof/RefScaled.lean); the kernel walks the matrix in 50 panels of 200 rows, reading at each panel the matching 200
  entries of the vector as a column block and the whole vector as a row block, and writes each panel back in place
  (Proof/KernelScaled.lean). Both are shown to leave ONE function of the arguments, `Cert.Scaling.scaled`
  (Proof/Scaling.lean), in their result arrays.

  The kernel's idealization rewrote nothing (the program has no change of float format, no constant and no bit
  manipulation), so that conjunct is trivially true; the three programs' termination, freedom from faults and
  unchanged arguments are the generated frame runs.
-/
import proofs.«108415_j13280038880162_2_alg».proof.Defs
import proofs.«108415_j13280038880162_2_alg».proof.Proof.Gen.Kernel
import proofs.«108415_j13280038880162_2_alg».proof.Proof.Gen.Kernel.Skeleton
import proofs.«108415_j13280038880162_2_alg».proof.Proof.Gen.Kernel.Launch
import proofs.«108415_j13280038880162_2_alg».proof.Proof.Gen.Kernel.Points
import proofs.«108415_j13280038880162_2_alg».proof.Proof.Gen.Kernel.Frame
import proofs.«108415_j13280038880162_2_alg».proof.Proof.Gen.KernelIdeal
import proofs.«108415_j13280038880162_2_alg».proof.Proof.Gen.KernelIdeal.Skeleton
import proofs.«108415_j13280038880162_2_alg».proof.Proof.Gen.KernelIdeal.Launch
import proofs.«108415_j13280038880162_2_alg».proof.Proof.Gen.KernelIdeal.Points
import proofs.«108415_j13280038880162_2_alg».proof.Proof.Gen.KernelIdeal.Frame
import proofs.«108415_j13280038880162_2_alg».proof.Proof.Gen.KernelIdeal.Value
import proofs.«108415_j13280038880162_2_alg».proof.Proof.Gen.ReferenceIdeal
import proofs.«108415_j13280038880162_2_alg».proof.Proof.Gen.ReferenceIdeal.Run
import proofs.«108415_j13280038880162_2_alg».proof.Proof.Gen.ReferenceIdeal.Read
import proofs.«108415_j13280038880162_2_alg».proof.Proof.Gen.Pre_finite_inputs
import proofs.«108415_j13280038880162_2_alg».proof.Proof.Scaling
import proofs.«108415_j13280038880162_2_alg».proof.Proof.RefScaled
import proofs.«108415_j13280038880162_2_alg».proof.Proof.KernelScaled
import Idealize.ShloMosaic.Adequacy
import Idealize.ShloMosaic.Init

noncomputable section

namespace Cert.Proof

open Idealize.ShloMosaic Idealize.SL.Sem

/-- The kernel as printed, on machine words: it terminates without a fault and leaves its arguments unchanged. -/
theorem frame_kernel : Cert.frame_Kernel := fun m ρ _ => Cert.Kernel.Gen.frame m ρ

/-- The same of the kernel read on the extended reals. -/
theorem frame_kernel_ideal : Cert.frame_KernelIdeal := fun m ρ _ => Cert.KernelIdeal.Gen.frame m ρ

/-- The reference has no kernel: its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the matrix and the vector, the kernel's result array and the
    reference's both end at `scaled A α`: the kernel's panel by panel, the reference's through its two broadcasts. -/
theorem algebraic : Cert.algebraic_KernelIdeal_ReferenceIdeal := by
  intro m ρ m' ρ' _ hagree
  refine ⟨fun c => Cert.Scaling.scaled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Scaled.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
